-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S4x1024 : Shape := ⟨2, ![4, 1024]⟩
abbrev S1024x4 : Shape := ⟨2, ![1024, 4]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S4x1024 : S_.BroadcastsInDim S4x1024 (![] : Fin 0 → Fin S4x1024.rank)
  reducesTo_S4x1024_S_d0_1 : S4x1024.ReducesTo [0, 1] S_
  bcast_S_S1024x4 : S_.BroadcastsInDim S1024x4 (![] : Fin 0 → Fin S1024x4.rank)
  reducesTo_S1024x4_S_d0_1 : S1024x4.ReducesTo [0, 1] S_

variable [Facts]

def fn {F : FTy → Type} [FloatOps F] (main_arg0 : FVec F S4x8192x1024 .f32) (main_arg1 : FVec F S4x1024 .f32) (main_arg2 : FVec F S1024x4 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S4x1024 .f32 := Host.absf main_arg1
  let main_cst_0 : FVec F S_ .f32 := constant S_ .f32 0x7F800000#32
  let main_v5 : FVec F S4x1024 .f32 := broadcastInDim S4x1024 ![] bcast_S_S4x1024 main_cst_0
  let main_v6 : IVec S4x1024 1 := cmpf .olt main_v4 main_v5
  let main_c_1 : IVec S_ 1 := constantI S_ 1 1#1
  let main_v7 : IVec S_ 1 := (fun x v => Host.reduce IntOp.andi x v reducesTo_S4x1024_S_d0_1 h_S_) main_v6 main_c_1
  let main_v8 : IVec S_ 1 := andi main_v3 main_v7
  let main_v9 : FVec F S1024x4 .f32 := Host.absf main_arg2
  let main_cst_2 : FVec F S_ .f32 := constant S_ .f32 0x7F800000#32
  let main_v10 : FVec F S1024x4 .f32 := broadcastInDim S1024x4 ![] bcast_S_S1024x4 main_cst_2
  let main_v11 : IVec S1024x4 1 := cmpf .olt main_v9 main_v10
  let main_c_3 : IVec S_ 1 := constantI S_ 1 1#1
  let main_v12 : IVec S_ 1 := (fun x v => Host.reduce IntOp.andi x v reducesTo_S1024x4_S_d0_1 h_S_) main_v11 main_c_3
  let main_v13 : IVec S_ 1 := andi main_v8 main_v12
  main_v13
-- ==== Kernel.lean ====
abbrev S4x8192x1024 : Shape := ⟨3, ![4, 8192, 1024]⟩
abbrev S4x1024 : Shape := ⟨2, ![4, 1024]⟩
abbrev S1024x4 : Shape := ⟨2, ![1024, 4]⟩
abbrev S32768x1024 : Shape := ⟨2, ![32768, 1024]⟩
abbrev S_ : Shape := ⟨0, ![]⟩
abbrev S128x1024 : Shape := ⟨2, ![128, 1024]⟩
abbrev S1 : Shape := ⟨1, ![1]⟩
abbrev S1024x128 : Shape := ⟨2, ![1024, 128]⟩
abbrev S1024x1024 : Shape := ⟨2, ![1024, 1024]⟩

abbrev nBuf : Space → Nat
  | .hbm => 18
  | .vmem => 6
  | .smem => 0
  | _ => 0

abbrev bufTy : (tb : Table) → Fin (tcTables nBuf tb) → BufTy
  | .hbm, ⟨0, _⟩ => ⟨S4x8192x1024, .f32⟩
  | .hbm, ⟨1, _⟩ => ⟨S4x1024, .f32⟩
  | .hbm, ⟨2, _⟩ => ⟨S1024x4, .f32⟩
  | .hbm, ⟨3, _⟩ => ⟨S32768x1024, .f32⟩
  | .hbm, ⟨4, _⟩ => ⟨S_, .bf16⟩
  | .hbm, ⟨5, _⟩ => ⟨S128x1024, .bf16⟩
  | .hbm, ⟨6, _⟩ => ⟨S4x1024, .bf16⟩
  | .hbm, ⟨7, _⟩ => ⟨S_, .i32⟩
  | .hbm, ⟨8, _⟩ => ⟨S1, .i32⟩
  | .hbm, ⟨9, _⟩ => ⟨S128x1024, .bf16⟩
  | .hbm, ⟨10, _⟩ => ⟨S_, .bf16⟩
  | .hbm, ⟨11, _⟩ => ⟨S1024x128, .bf16⟩
  | .hbm, ⟨12, _⟩ => ⟨S1024x4, .bf16⟩
  | .hbm, ⟨13, _⟩ => ⟨S_, .i32⟩
  | .hbm, ⟨14, _⟩ => ⟨S1, .i32⟩
  | .hbm, ⟨15, _⟩ => ⟨S1024x128, .bf16⟩
  | .hbm, ⟨16, _⟩ => ⟨S32768x1024, .f32⟩
  | .hbm, ⟨17, _⟩ => ⟨S4x8192x1024, .f32⟩
  | .local _ .vmem, ⟨0, _⟩ => ⟨S1024x1024, .f32⟩
  | .local _ .vmem, ⟨1, _⟩ => ⟨S1024x1024, .f32⟩
  | .local _ .vmem, ⟨2, _⟩ => ⟨S128x1024, .bf16⟩
  | .local _ .vmem, ⟨3, _⟩ => ⟨S1024x128, .bf16⟩
  | .local _ .vmem, ⟨4, _⟩ => ⟨S1024x1024, .f32⟩
  | .local _ .vmem, ⟨5, _⟩ => ⟨S1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x8192x1024_S32768x1024 : S4x8192x1024.ShapeCasts S32768x1024
  bcast_S_S128x1024 : S_.BroadcastsInDim S128x1024 (![] : Fin 0 → Fin S128x1024.rank)
  bitsLt_bf16_f32 : FTy.bits .bf16 < FTy.bits .f32
  bcast_S_S1 : S_.BroadcastsInDim S1 (![] : Fin 0 → Fin S1.rank)
  bcast_S_S1024x128 : S_.BroadcastsInDim S1024x128 (![] : Fin 0 → Fin S1024x128.rank)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  shapeCasts_S32768x1024_S4x8192x1024 : S32768x1024.ShapeCasts S4x8192x1024
  scatter_S128x1024_S1_S4x1024_01_n_0_0_wf : ScatterDims.WF S128x1024 S1 S4x1024 [0, 1] [] [0] 0
  scatter_S1024x128_S1_S1024x4_01_n_1_0_wf : ScatterDims.WF S1024x128 S1 S1024x4 [0, 1] [] [1] 0
  dot_S1024x1024_S128x1024_S1024x128_1_1_0_0_n_n_wf : DotDims.WF S1024x1024 S128x1024 S1024x128 [1] [1] [0] [0] [] []
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .bf16 = 32 ∨ (Rect.block (s := S128x1024) S128x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .bf16 = 32 ∨ (Rect.block (s := S1024x128) S1024x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S32768x1024.size a
  hwx0_3 : ∀ i : grid0.Coords, EltTy.bits .f32 = 32 ∨ (Rect.block (s := S32768x1024) S1024x1024.size (cc0_transform_3 i) (hinb0_3 i)).WholeWords (EltTy.packing .f32)

variable [Facts₀]

def scatter_S128x1024_S1_S4x1024_01_n_0_0 : ScatterDims S128x1024 S1 S4x1024 where
  updateWindowDims := [0, 1]
  insertedWindowDims := []
  scatterDimsToOperandDims := [0]
  indexVectorDim := 0
  wf := scatter_S128x1024_S1_S4x1024_01_n_0_0_wf
def scatter_S1024x128_S1_S1024x4_01_n_1_0 : ScatterDims S1024x128 S1 S1024x4 where
  updateWindowDims := [0, 1]
  insertedWindowDims := []
  scatterDimsToOperandDims := [1]
  indexVectorDim := 0
  wf := scatter_S1024x128_S1_S1024x4_01_n_1_0_wf
def dot_S1024x1024_S128x1024_S1024x128_1_1_0_0_n_n : DotDims S1024x1024 S128x1024 S1024x128 where
  lhsContracting := [1]
  rhsContracting := [1]
  lhsNonContracting := [0]
  rhsNonContracting := [0]
  lhsBatch := []
  rhsBatch := []
  wf := dot_S1024x1024_S128x1024_S1024x128_1_1_0_0_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8192x1024 : Shape := ⟨3, ![4, 8192, 1024]⟩
abbrev S4x1024 : Shape := ⟨2, ![4, 1024]⟩
abbrev S1024x4 : Shape := ⟨2, ![1024, 4]⟩
abbrev S4x8192x4 : Shape := ⟨3, ![4, 8192, 4]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1024, .f32⟩
  | .hbm, ⟨2, _⟩ => ⟨S1024x4, .f32⟩
  | .hbm, ⟨3, _⟩ => ⟨S4x8192x4, .f32⟩
  | .hbm, ⟨4, _⟩ => ⟨S4x8192x1024, .f32⟩
  | .hbm, ⟨5, _⟩ => ⟨S_, .f32⟩
  | .hbm, ⟨6, _⟩ => ⟨S4x8192x1024, .f32⟩
  | .hbm, ⟨7, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  bcast_S_S4x8192x1024 : S_.BroadcastsInDim S4x8192x1024 (![] : Fin 0 → Fin S4x8192x1024.rank)
  dot_S4x8192x1024_S4x1024_S4x8192x4_2_1_01_0_n_n_wf : DotDims.WF S4x8192x1024 S4x1024 S4x8192x4 [2] [1] [0, 1] [0] [] []
  dot_S4x8192x4_S1024x4_S4x8192x1024_2_1_01_0_n_n_wf : DotDims.WF S4x8192x4 S1024x4 S4x8192x1024 [2] [1] [0, 1] [0] [] []

variable [Facts₀]

def dot_S4x8192x1024_S4x1024_S4x8192x4_2_1_01_0_n_n : DotDims S4x8192x1024 S4x1024 S4x8192x4 where
  lhsContracting := [2]
  rhsContracting := [1]
  lhsNonContracting := [0, 1]
  rhsNonContracting := [0]
  lhsBatch := []
  rhsBatch := []
  wf := dot_S4x8192x1024_S4x1024_S4x8192x4_2_1_01_0_n_n_wf
def dot_S4x8192x4_S1024x4_S4x8192x1024_2_1_01_0_n_n : DotDims S4x8192x4 S1024x4 S4x8192x1024 where
  lhsContracting := [2]
  rhsContracting := [1]
  lhsNonContracting := [0, 1]
  rhsNonContracting := [0]
  lhsBatch := []
  rhsBatch := []
  wf := dot_S4x8192x4_S1024x4_S4x8192x1024_2_1_01_0_n_n_wf

class Facts : Prop extends Facts₀ where

variable [Facts]
-- ==== Proof.Spec.lean ====
/-
  The low-rank update as one function of its three arrays, entry by entry, over the extended reals.

  For a matrix `X` of `R` rows and 1024 columns, a [P, 1024] matrix `A` and a [1024, P] matrix `B`, entry `(r, o)` of the
  result is `(∑ p < P, (∑ k < 1024, X (r, k) · A (p, k)) · B (o, p)) · ¼`: the product `X · Aᵀ`, then the product with
  `Bᵀ`, then the scale. The same formula over a rank-3 array `x` of shape [4, 8192, 1024] reads row `(b, s)` of `x`.
  The scale is kept as its binary word: both programs spell the same word, so it is never evaluated.
-/
import Idealize.ShloMosaic.PureOps.Ideal
import Idealize.ShloMosaic.Lib.ValueIdx

noncomputable section

namespace Cert.Lora

open Idealize.ShloMosaic Idealize.ShloMosaic.ValueIdx
open scoped BigOperators

/-- The scale, one quarter, as the word both programs spell. -/
abbrev quarter : EReal := Ideal.ofBits .f32 0x3E800000#32

/-- The rank-`P` update of a matrix of `R` rows. -/
def lora2 {R P : Nat} (X : (⟨2, ![R, 1024]⟩ : Shape).Idx → EReal) (A : (⟨2, ![P, 1024]⟩ : Shape).Idx → EReal)
    (B : (⟨2, ![1024, P]⟩ : Shape).Idx → EReal) : (⟨2, ![R, 1024]⟩ : Shape).Idx → EReal :=
  fun i => (∑ p : Fin P, (∑ k : Fin 1024, X (ix2 (i 0) k) * A (ix2 p k)) * B (ix2 (i 1) p)) * quarter

theorem lora2_apply {R P : Nat} (X : (⟨2, ![R, 1024]⟩ : Shape).Idx → EReal) (A : (⟨2, ![P, 1024]⟩ : Shape).Idx → EReal)
    (B : (⟨2, ![1024, P]⟩ : Shape).Idx → EReal) (r : Fin R) (o : Fin 1024) :
    lora2 X A B (ix2 r o) = (∑ p : Fin P, (∑ k : Fin 1024, X (ix2 r k) * A (ix2 p k)) * B (ix2 o p)) * quarter := rfl

/-- The rank-`P` update of a [4, 8192, 1024] array, row `(b, s)` by row. -/
def lora3 {P : Nat} (x : (⟨3, ![4, 8192, 1024]⟩ : Shape).Idx → EReal) (A : (⟨2, ![P, 1024]⟩ : Shape).Idx → EReal)
    (B : (⟨2, ![1024, P]⟩ : Shape).Idx → EReal) : (⟨3, ![4, 8192, 1024]⟩ : Shape).Idx → EReal :=
  fun i => (∑ p : Fin P, (∑ k : Fin 1024, x (ix3 (i 0) (i 1) k) * A (ix2 p k)) * B (ix2 (i 2) p)) * quarter

theorem lora3_apply {P : Nat} (x : (⟨3, ![4, 8192, 1024]⟩ : Shape).Idx → EReal) (A : (⟨2, ![P, 1024]⟩ : Shape).Idx → EReal)
    (B : (⟨2, ![1024, P]⟩ : Shape).Idx → EReal) (b : Fin 4) (s : Fin 8192) (o : Fin 1024) :
    lora3 x A B (ix3 b s o) = (∑ p : Fin P, (∑ k : Fin 1024, x (ix3 b s k) * A (ix2 p k)) * B (ix2 o p)) * quarter := rfl

end Cert.Lora

end
-- ==== Proof.Payload.lean ====
/-
  What the body computes from the three blocks it loads, entry by entry.

  The body multiplies its [1024, 1024] block of rows by the transpose of the [128, 1024] weight block (contracting both
  operands' second axes), multiplies the [1024, 128] result by the transpose of the [1024, 128] second weight block
  (again contracting the second axes), and scales by one quarter. Into a zero accumulator a matrix product is the plain
  sum of products over the contracted coordinate, and a change of float format is the identity over the extended reals,
  so the stored block is the rank-128 low-rank update of the loaded rows.
-/
import proofs.«109540_j12884901888328_1_alg».proof.Proof.Gen.KernelIdeal.Skeleton
import proofs.«109540_j12884901888328_1_alg».proof.Proof.Spec
import Idealize.ShloMosaic.Lib.Pipeline.Value
import Idealize.ShloMosaic.Lib.ValueIdx
import Idealize.ShloMosaic.PureOps.Ideal
import Idealize.ShloMosaic.PureOps.Ideal.Laws

noncomputable section

namespace Cert.KernelIdeal.Payload

open Idealize.ShloMosaic Idealize.ShloMosaic.ValueIdx
open Cert.KernelIdeal Cert.KernelIdeal.Gen Cert.Lora
open scoped BigOperators

/-! ## The first product: rows times the transposed weight block -/

theorem lhs1_0 (i : S1024x128.Idx) (q : dot_S1024x1024_S128x1024_S1024x128_1_1_0_0_n_n.contr.Idx) :
    (dot_S1024x1024_S128x1024_S1024x128_1_1_0_0_n_n.lhsIdx i q 0).val = (i 0).val := by
  unfold DotDims.lhsIdx
  rw [dif_neg (show ¬(0 : Fin S1024x1024.rank) ∈ dot_S1024x1024_S128x1024_S1024x128_1_1_0_0_n_n.lhsBatch by decide),
    dif_pos (show (0 : Fin S1024x1024.rank) ∈ dot_S1024x1024_S128x1024_S1024x128_1_1_0_0_n_n.lhsNonContracting by decide)]
  rfl
theorem lhs1_1 (i : S1024x128.Idx) (q : dot_S1024x1024_S128x1024_S1024x128_1_1_0_0_n_n.contr.Idx) :
    (dot_S1024x1024_S128x1024_S1024x128_1_1_0_0_n_n.lhsIdx i q 1).val = (q ⟨0, by decide⟩).val :=
  dot_S1024x1024_S128x1024_S1024x128_1_1_0_0_n_n.lhsIdx_val_of_single rfl i q
theorem rhs1_0 (i : S1024x128.Idx) (q : dot_S1024x1024_S128x1024_S1024x128_1_1_0_0_n_n.contr.Idx) :
    (dot_S1024x1024_S128x1024_S1024x128_1_1_0_0_n_n.rhsIdx i q 0).val = (i 1).val := by
  unfold DotDims.rhsIdx
  rw [dif_neg (show ¬(0 : Fin S128x1024.rank) ∈ dot_S1024x1024_S128x1024_S1024x128_1_1_0_0_n_n.rhsBatch by decide),
    dif_pos (show (0 : Fin S128x1024.rank) ∈ dot_S1024x1024_S128x1024_S1024x128_1_1_0_0_n_n.rhsNonContracting by decide)]
  rfl
theorem rhs1_1 (i : S1024x128.Idx) (q : dot_S1024x1024_S128x1024_S1024x128_1_1_0_0_n_n.contr.Idx) :
    (dot_S1024x1024_S128x1024_S1024x128_1_1_0_0_n_n.rhsIdx i q 1).val = (q ⟨0, by decide⟩).val :=
  dot_S1024x1024_S128x1024_S1024x128_1_1_0_0_n_n.rhsIdx_val_of_single rfl i q

/-- Entry `(a, p)` of the first product is `∑ k, l (a, k) · r (p, k)`. -/
theorem mm1_apply (l : FVec Ideal S1024x1024 .bf16) (r : FVec Ideal S128x1024 .bf16) (a : Fin 1024) (p : Fin 128) :
    matmul dot_S1024x1024_S128x1024_S1024x128_1_1_0_0_n_n none l r (constant (F := Ideal) S1024x128 .f32 0x00000000#32) (ix2 a p)
      = ∑ k : Fin 1024, l (ix2 a k) * r (ix2 p k) := by
  simp only [matmul]
  rw [Ideal.matmul_constant_zero_apply,
    ← Equiv.sum_comp (contrEquiv1 dot_S1024x1024_S128x1024_S1024x128_1_1_0_0_n_n 1024 rfl rfl).symm]
  refine Finset.sum_congr rfl fun k _ => ?_
  have hk := contrEquiv1_symm_val dot_S1024x1024_S128x1024_S1024x128_1_1_0_0_n_n 1024 rfl rfl k
  have el : dot_S1024x1024_S128x1024_S1024x128_1_1_0_0_n_n.lhsIdx (ix2 a p)
      ((contrEquiv1 dot_S1024x1024_S128x1024_S1024x128_1_1_0_0_n_n 1024 rfl rfl).symm k) = ix2 a k :=
    funext fun d => Fin.ext (by
      match d with
      | ⟨0, _⟩ => exact lhs1_0 _ _
      | ⟨1, _⟩ => exact (lhs1_1 _ _).trans hk)
  have er : dot_S1024x1024_S128x1024_S1024x128_1_1_0_0_n_n.rhsIdx (ix2 a p)
      ((contrEquiv1 dot_S1024x1024_S128x1024_S1024x128_1_1_0_0_n_n 1024 rfl rfl).symm k) = ix2 p k :=
    funext fun d => Fin.ext (by
      match d with
      | ⟨0, _⟩ => exact rhs1_0 _ _
      | ⟨1, _⟩ => exact (rhs1_1 _ _).trans hk)
  rw [el, er]

/-! ## The second product: the [1024, 128] intermediate times the transposed second weight block -/

theorem lhs2_0 (i : S1024x1024.Idx) (q : dot_S1024x128_S1024x128_S1024x1024_1_1_0_0_n_n.contr.Idx) :
    (dot_S1024x128_S1024x128_S1024x1024_1_1_0_0_n_n.lhsIdx i q 0).val = (i 0).val := by
  unfold DotDims.lhsIdx
  rw [dif_neg (show ¬(0 : Fin S1024x128.rank) ∈ dot_S1024x128_S1024x128_S1024x1024_1_1_0_0_n_n.lhsBatch by decide),
    dif_pos (show (0 : Fin S1024x128.rank) ∈ dot_S1024x128_S1024x128_S1024x1024_1_1_0_0_n_n.lhsNonContracting by decide)]
  rfl
theorem lhs2_1 (i : S1024x1024.Idx) (q : dot_S1024x128_S1024x128_S1024x1024_1_1_0_0_n_n.contr.Idx) :
    (dot_S1024x128_S1024x128_S1024x1024_1_1_0_0_n_n.lhsIdx i q 1).val = (q ⟨0, by decide⟩).val :=
  dot_S1024x128_S1024x128_S1024x1024_1_1_0_0_n_n.lhsIdx_val_of_single rfl i q
theorem rhs2_0 (i : S1024x1024.Idx) (q : dot_S1024x128_S1024x128_S1024x1024_1_1_0_0_n_n.contr.Idx) :
    (dot_S1024x128_S1024x128_S1024x1024_1_1_0_0_n_n.rhsIdx i q 0).val = (i 1).val := by
  unfold DotDims.rhsIdx
  rw [dif_neg (show ¬(0 : Fin S1024x128.rank) ∈ dot_S1024x128_S1024x128_S1024x1024_1_1_0_0_n_n.rhsBatch by decide),
    dif_pos (show (0 : Fin S1024x128.rank) ∈ dot_S1024x128_S1024x128_S1024x1024_1_1_0_0_n_n.rhsNonContracting by decide)]
  rfl
theorem rhs2_1 (i : S1024x1024.Idx) (q : dot_S1024x128_S1024x128_S1024x1024_1_1_0_0_n_n.contr.Idx) :
    (dot_S1024x128_S1024x128_S1024x1024_1_1_0_0_n_n.rhsIdx i q 1).val = (q ⟨0, by decide⟩).val :=
  dot_S1024x128_S1024x128_S1024x1024_1_1_0_0_n_n.rhsIdx_val_of_single rfl i q

/-- Entry `(a, o)` of the second product is `∑ p, l (a, p) · r (o, p)`. -/
theorem mm2_apply (l : FVec Ideal S1024x128 .bf16) (r : FVec Ideal S1024x128 .bf16) (a : Fin 1024) (o : Fin 1024) :
    matmul dot_S1024x128_S1024x128_S1024x1024_1_1_0_0_n_n none l r (constant (F := Ideal) S1024x1024 .f32 0x00000000#32) (ix2 a o)
      = ∑ p : Fin 128, l (ix2 a p) * r (ix2 o p) := by
  simp only [matmul]
  rw [Ideal.matmul_constant_zero_apply,
    ← Equiv.sum_comp (contrEquiv1 dot_S1024x128_S1024x128_S1024x1024_1_1_0_0_n_n 128 rfl rfl).symm]
  refine Finset.sum_congr rfl fun p _ => ?_
  have hp := contrEquiv1_symm_val dot_S1024x128_S1024x128_S1024x1024_1_1_0_0_n_n 128 rfl rfl p
  have el : dot_S1024x128_S1024x128_S1024x1024_1_1_0_0_n_n.lhsIdx (ix2 a o)
      ((contrEquiv1 dot_S1024x128_S1024x128_S1024x1024_1_1_0_0_n_n 128 rfl rfl).symm p) = ix2 a p :=
    funext fun d => Fin.ext (by
      match d with
      | ⟨0, _⟩ => exact lhs2_0 _ _
      | ⟨1, _⟩ => exact (lhs2_1 _ _).trans hp)
  have er : dot_S1024x128_S1024x128_S1024x1024_1_1_0_0_n_n.rhsIdx (ix2 a o)
      ((contrEquiv1 dot_S1024x128_S1024x128_S1024x1024_1_1_0_0_n_n 128 rfl rfl).symm p) = ix2 o p :=
    funext fun d => Fin.ext (by
      match d with
      | ⟨0, _⟩ => exact rhs2_0 _ _
      | ⟨1, _⟩ => exact (rhs2_1 _ _).trans hp)
  rw [el, er]

/-! ## The payload -/

/-- THE STORED BLOCK is the rank-128 low-rank update of the three loaded blocks. -/
theorem pay_eq (x0 : Vec Ideal S1024x1024 .f32) (x1 : Vec Ideal S128x1024 .bf16) (x2 : Vec Ideal S1024x128 .bf16) :
    k0_pay1 (F := Ideal) x0 x1 x2 = lora2 (R := 1024) (P := 128) x0 x1 x2 := by
  funext j
  obtain ⟨a, o, rfl⟩ : ∃ (a : Fin 1024) (o : Fin 1024), j = ix2 a o := ⟨j 0, j 1, eq_ix2 j⟩
  unfold k0_pay1
  rw [mulf_apply, mm2_apply, lora2_apply]
  refine congrArg₂ (· * ·) (Finset.sum_congr rfl fun p _ => congrArg₂ (· * ·) ?_ ?_) rfl
  · show matmul dot_S1024x1024_S128x1024_S1024x128_1_1_0_0_n_n none _ _ (constant (F := Ideal) S1024x128 .f32 0x00000000#32) (ix2 a p) = _
    rw [mm1_apply]
    refine Finset.sum_congr rfl fun k _ => congrArg₂ (· * ·) ?_ ?_
    · rw [shapeCast_self]; rfl
    · rw [shapeCast_self]
  · rw [shapeCast_self]

end Cert.KernelIdeal.Payload

end
-- ==== Proof.LibScatterSet.lean ====
/-
  A scatter whose body returns the update ("set"), read at an entry.

  The host scatter is a left fold over the update entries in row-major order: each entry that lands inside the operand
  overwrites the operand's entry it lands on. When the landing map is an injection `g` of the update's indices into the
  operand's indices, the fold needs no order: the result at `g j` is the update at `j`, and the result at an index that
  is no `g j` is the operand there.

  The landing index of an update entry is, axis by axis, the start read off the scatter indices plus the entry's
  window coordinate; it is `some g` as soon as those sums are the coordinates of an operand index `g`.
-/
import Idealize.ShloMosaic.PureOps.ShapeOps
import Idealize.ShloMosaic.PureOps.Dims

noncomputable section

namespace LibScatterSet

open Idealize.ShloMosaic

/-- A left fold of steps that each either overwrite one entry (`tgt n = some i`: entry `i` becomes `val n`) or do
    nothing (`tgt n = none`), read at the entry `i'`: if every step aimed at `i'` writes the same value `v`, and
    either some step is aimed at `i'` or the start already holds `v` there, the fold ends with `v` at `i'`. -/
theorem foldl_set_apply {ι α β : Type} (tgt : β → Option ι) (val : β → α) (step : (ι → α) → β → (ι → α))
    (hsome : ∀ (r : ι → α) (n : β) (i : ι), tgt n = some i → step r n i = val n ∧ ∀ j, j ≠ i → step r n j = r j)
    (hnone : ∀ (r : ι → α) (n : β), tgt n = none → step r n = r)
    (l : List β) (x : ι → α) (i' : ι) (v : α)
    (hall : ∀ n ∈ l, tgt n = some i' → val n = v)
    (h : (∃ n ∈ l, tgt n = some i') ∨ x i' = v) :
    (l.foldl step x) i' = v := by
  induction l generalizing x with
  | nil =>
    rcases h with ⟨n, hn, _⟩ | h
    · exact absurd hn (List.not_mem_nil)
    · exact h
  | cons n l ih =>
    rw [List.foldl_cons]
    refine ih (step x n) (fun n' hn' ht => hall n' (List.mem_cons_of_mem _ hn') ht) ?_
    by_cases hex : ∃ n' ∈ l, tgt n' = some i'
    · exact Or.inl hex
    · refine Or.inr ?_
      cases htn : tgt n with
      | none =>
        rw [hnone x n htn]
        rcases h with ⟨n', hn', ht'⟩ | h
        · rcases List.mem_cons.mp hn' with rfl | hn'
          · rw [htn] at ht'; exact absurd ht' (by simp)
          · exact absurd ⟨n', hn', ht'⟩ hex
        · exact h
      | some i =>
        by_cases hi : i' = i
        · subst hi
          rw [(hsome x n i' htn).1]
          exact hall n (List.mem_cons_self ..) htn
        · rw [(hsome x n i htn).2 i' hi]
          rcases h with ⟨n', hn', ht'⟩ | h
          · rcases List.mem_cons.mp hn' with rfl | hn'
            · rw [htn] at ht'; exact absurd (Option.some.inj ht').symm hi
            · exact absurd ⟨n', hn', ht'⟩ hex
          · exact h

variable {s si u : Shape} {w : Nat} {α : Type}

/-- The landing index of update entry `j` is `g` when, on every operand axis, the start plus the window coordinate is
    `g`'s coordinate. -/
theorem resultIdx?_eq_some (d : ScatterDims s si u) (j : u.Idx) (idx : IVec si w) (g : s.Idx)
    (h : ∀ a, d.start j idx a + d.window j a = ((g a).val : Int)) : d.resultIdx? j idx = some g := by
  unfold ScatterDims.resultIdx?
  have hc : ∀ a, 0 ≤ d.start j idx a + d.window j a ∧ d.start j idx a + d.window j a < s.size a := fun a => by
    rw [h a]; exact ⟨Int.natCast_nonneg _, by exact_mod_cast (g a).isLt⟩
  rw [dif_pos hc]
  refine congrArg some (funext fun a => Fin.ext ?_)
  show (d.start j idx a + d.window j a).toNat = (g a).val
  rw [h a]; exact Int.toNat_natCast _

/-- The step of the scatter's fold, for a body that returns the update. -/
private def setStep (d : ScatterDims s si u) (idx : IVec si w) (upd : u.Idx → α) (r : s.Idx → α) (n : Fin u.numel) : s.Idx → α :=
  match d.resultIdx? (u.rowMajor.symm n) idx with
  | some i => fun i' => if i' = i then (fun (_ : α) (b : α) => b) (r i) (upd (u.rowMajor.symm n)) else r i'
  | none => r

private theorem scatter_eq_foldl (d : ScatterDims s si u) (x : s.Idx → α) (idx : IVec si w) (upd : u.Idx → α) :
    Host.scatter d (fun _ b => b) x idx upd = (List.finRange u.numel).foldl (setStep d idx upd) x := rfl

private theorem setStep_some (d : ScatterDims s si u) (idx : IVec si w) (upd : u.Idx → α) (r : s.Idx → α) (n : Fin u.numel)
    (i : s.Idx) (h : d.resultIdx? (u.rowMajor.symm n) idx = some i) :
    setStep d idx upd r n i = upd (u.rowMajor.symm n) ∧ ∀ j, j ≠ i → setStep d idx upd r n j = r j := by
  unfold setStep
  rw [h]
  exact ⟨if_pos rfl, fun j hj => if_neg hj⟩

private theorem setStep_none (d : ScatterDims s si u) (idx : IVec si w) (upd : u.Idx → α) (r : s.Idx → α) (n : Fin u.numel)
    (h : d.resultIdx? (u.rowMajor.symm n) idx = none) : setStep d idx upd r n = r := by
  unfold setStep
  rw [h]

/-- HIT: where update entry `j` lands, the scatter holds the update at `j` (the landing map an injection). -/
theorem scatter_set_hit (d : ScatterDims s si u) (x : s.Idx → α) (idx : IVec si w) (upd : u.Idx → α) (g : u.Idx → s.Idx)
    (hg : ∀ j, d.resultIdx? j idx = some (g j)) (hinj : Function.Injective g) (j : u.Idx) :
    Host.scatter d (fun _ b => b) x idx upd (g j) = upd j := by
  rw [scatter_eq_foldl]
  refine foldl_set_apply (fun n => d.resultIdx? (u.rowMajor.symm n) idx) (fun n => upd (u.rowMajor.symm n)) (setStep d idx upd)
    (fun r n i h => setStep_some d idx upd r n i h) (fun r n h => setStep_none d idx upd r n h) _ x (g j) (upd j) ?_ ?_
  · intro n _ hn
    rw [hg] at hn
    exact congrArg upd (hinj (Option.some.inj hn))
  · refine Or.inl ⟨u.rowMajor j, List.mem_finRange _, ?_⟩
    show d.resultIdx? (u.rowMajor.symm (u.rowMajor j)) idx = some (g j)
    rw [Equiv.symm_apply_apply]; exact hg j

/-- MISS: at an index no update entry lands on, the scatter holds the operand. -/
theorem scatter_set_miss (d : ScatterDims s si u) (x : s.Idx → α) (idx : IVec si w) (upd : u.Idx → α) (g : u.Idx → s.Idx)
    (hg : ∀ j, d.resultIdx? j idx = some (g j)) (i : s.Idx) (hi : ∀ j, g j ≠ i) :
    Host.scatter d (fun _ b => b) x idx upd i = x i := by
  rw [scatter_eq_foldl]
  refine foldl_set_apply (fun n => d.resultIdx? (u.rowMajor.symm n) idx) (fun n => upd (u.rowMajor.symm n)) (setStep d idx upd)
    (fun r n i h => setStep_some d idx upd r n i h) (fun r n h => setStep_none d idx upd r n h) _ x i (x i) ?_ (Or.inr rfl)
  intro n _ hn
  rw [hg] at hn
  exact absurd (Option.some.inj hn) (hi _)

end LibScatterSet

end
-- ==== Proof.Pads.lean ====
/-
  The two weight arrays the region reads, entry by entry.

  Before the call the program builds a [128, 1024] array of zeros and writes the [4, 1024] matrix `A` over its first four
  rows, and a [1024, 128] array of zeros with the [1024, 4] matrix `B` written over its first four columns. Both writes
  are scatters of one window at the start index 0 whose body returns the update, so update entry `(r, c)` lands on
  operand entry `(r, c)`: an injection. Hence entry `(p, i)` of the first array is `A (p, i)` for `p < 4` and `0` beyond,
  and entry `(o, p)` of the second is `B (o, p)` for `p < 4` and `0` beyond. (Over the extended reals a change of float
  format is the identity and the zero word of either format is the number 0.)
-/
import proofs.«109540_j12884901888328_1_alg».proof.Proof.Gen.KernelIdeal
import proofs.«109540_j12884901888328_1_alg».proof.Proof.LibScatterSet
import Idealize.ShloMosaic.Lib.ValueIdx
import Idealize.ShloMosaic.PureOps.Ideal
import Idealize.ShloMosaic.PureOps.Ideal.Laws

noncomputable section

namespace Cert.KernelIdeal.Pads

open Idealize.ShloMosaic Idealize.ShloMosaic.ValueIdx
open Cert.KernelIdeal Cert.KernelIdeal.Gen

/-- The bf16 zero word is the number 0. -/
theorem ofBits_zero_bf16 : Ideal.ofBits .bf16 0#16 = 0 := by simp [Ideal.ofBits, Ideal.ieee]

/-- `A` padded with zero rows from row 4 on. -/
def padA (A : S4x1024.Idx → EReal) : S128x1024.Idx → EReal :=
  fun i => if h : (i 0).val < 4 then A (ix2 ⟨(i 0).val, h⟩ (i 1)) else 0

/-- `B` padded with zero columns from column 4 on. -/
def padB (B : S1024x4.Idx → EReal) : S1024x128.Idx → EReal :=
  fun i => if h : (i 1).val < 4 then B (ix2 (i 0) ⟨(i 1).val, h⟩) else 0

/-- Where entry `(r, c)` of the [4, 1024] update lands in the [128, 1024] operand: at `(r, c)`. -/
def embA (j : S4x1024.Idx) : S128x1024.Idx := ix2 ⟨(j 0).val, Nat.lt_of_lt_of_le (j 0).isLt (by decide)⟩ (j 1)

/-- Where entry `(o, r)` of the [1024, 4] update lands in the [1024, 128] operand: at `(o, r)`. -/
def embB (j : S1024x4.Idx) : S1024x128.Idx := ix2 (j 0) ⟨(j 1).val, Nat.lt_of_lt_of_le (j 1).isLt (by decide)⟩

theorem embA_inj : Function.Injective embA := fun j j' h => by
  have h0 : (j 0).val = (j' 0).val := congrArg (fun i : S128x1024.Idx => (i 0).val) h
  have h1 : j 1 = j' 1 := congrFun h 1
  funext a
  match a with
  | ⟨0, _⟩ => exact Fin.ext h0
  | ⟨1, _⟩ => exact h1

theorem embB_inj : Function.Injective embB := fun j j' h => by
  have h0 : j 0 = j' 0 := congrFun h 0
  have h1 : (j 1).val = (j' 1).val := congrArg (fun i : S1024x128.Idx => (i 1).val) h
  funext a
  match a with
  | ⟨0, _⟩ => exact h0
  | ⟨1, _⟩ => exact Fin.ext h1

/-- The scatter indices: the one start index, 0. -/
abbrev idx0 : IVec S1 32 := broadcastInDim S1 ![] bcast_S_S1 (constantI S_ 32 0#32)

theorem landA (j : S4x1024.Idx) : scatter_S128x1024_S1_S4x1024_01_n_0_0.resultIdx? j idx0 = some (embA j) := by
  refine LibScatterSet.resultIdx?_eq_some _ j idx0 (embA j) fun a => ?_
  match a with
  | ⟨0, _⟩ =>
    have hs : scatter_S128x1024_S1_S4x1024_01_n_0_0.start j idx0 (0 : Fin 2) = 0 := by rfl
    have hw : scatter_S128x1024_S1_S4x1024_01_n_0_0.window j (0 : Fin 2) = (j 0).val := by rfl
    show scatter_S128x1024_S1_S4x1024_01_n_0_0.start j idx0 (0 : Fin 2) + (scatter_S128x1024_S1_S4x1024_01_n_0_0.window j (0 : Fin 2) : Int) = ((j 0).val : Int)
    rw [hs, hw, Int.zero_add]
  | ⟨1, _⟩ =>
    have hs : scatter_S128x1024_S1_S4x1024_01_n_0_0.start j idx0 (1 : Fin 2) = 0 := by rfl
    have hw : scatter_S128x1024_S1_S4x1024_01_n_0_0.window j (1 : Fin 2) = (j 1).val := by rfl
    show scatter_S128x1024_S1_S4x1024_01_n_0_0.start j idx0 (1 : Fin 2) + (scatter_S128x1024_S1_S4x1024_01_n_0_0.window j (1 : Fin 2) : Int) = ((j 1).val : Int)
    rw [hs, hw, Int.zero_add]

theorem landB (j : S1024x4.Idx) : scatter_S1024x128_S1_S1024x4_01_n_1_0.resultIdx? j idx0 = some (embB j) := by
  refine LibScatterSet.resultIdx?_eq_some _ j idx0 (embB j) fun a => ?_
  match a with
  | ⟨0, _⟩ =>
    have hs : scatter_S1024x128_S1_S1024x4_01_n_1_0.start j idx0 (0 : Fin 2) = 0 := by rfl
    have hw : scatter_S1024x128_S1_S1024x4_01_n_1_0.window j (0 : Fin 2) = (j 0).val := by rfl
    show scatter_S1024x128_S1_S1024x4_01_n_1_0.start j idx0 (0 : Fin 2) + (scatter_S1024x128_S1_S1024x4_01_n_1_0.window j (0 : Fin 2) : Int) = ((j 0).val : Int)
    rw [hs, hw, Int.zero_add]
  | ⟨1, _⟩ =>
    have hs : scatter_S1024x128_S1_S1024x4_01_n_1_0.start j idx0 (1 : Fin 2) = 0 := by rfl
    have hw : scatter_S1024x128_S1_S1024x4_01_n_1_0.window j (1 : Fin 2) = (j 1).val := by rfl
    show scatter_S1024x128_S1_S1024x4_01_n_1_0.start j idx0 (1 : Fin 2) + (scatter_S1024x128_S1_S1024x4_01_n_1_0.window j (1 : Fin 2) : Int) = ((j 1).val : Int)
    rw [hs, hw, Int.zero_add]

/-- THE FIRST WEIGHT ARRAY: the scatter of `A` into the zeros is `A` padded. -/
theorem scatterA_eq (A : S4x1024.Idx → EReal) :
    Host.scatter scatter_S128x1024_S1_S4x1024_01_n_0_0 (fun _ b => b)
      (broadcastInDim S128x1024 ![] bcast_S_S128x1024 (constant (F := Ideal) S_ .bf16 0#16)) idx0
      (truncf (F := Ideal) .bf16 (A : FVec Ideal S4x1024 .f32) bitsLt_bf16_f32) = padA A := by
  funext i
  unfold padA
  by_cases h : (i 0).val < 4
  · rw [dif_pos h]
    have hi : i = embA (ix2 ⟨(i 0).val, h⟩ (i 1)) := by
      funext a
      match a with
      | ⟨0, _⟩ => exact Fin.ext rfl
      | ⟨1, _⟩ => rfl
    conv_lhs => rw [hi]
    rw [LibScatterSet.scatter_set_hit _ _ idx0 _ embA landA embA_inj]
    rfl
  · rw [dif_neg h]
    rw [LibScatterSet.scatter_set_miss _ _ idx0 _ embA landA i (fun j hj => h (by
      have : (j 0).val = (i 0).val := congrArg (fun i : S128x1024.Idx => (i 0).val) hj
      have hj0 : (j 0).val < 4 := (j 0).isLt
      omega))]
    exact ofBits_zero_bf16

/-- THE SECOND WEIGHT ARRAY: the scatter of `B` into the zeros is `B` padded. -/
theorem scatterB_eq (B : S1024x4.Idx → EReal) :
    Host.scatter scatter_S1024x128_S1_S1024x4_01_n_1_0 (fun _ b => b)
      (broadcastInDim S1024x128 ![] bcast_S_S1024x128 (constant (F := Ideal) S_ .bf16 0#16)) idx0
      (truncf (F := Ideal) .bf16 (B : FVec Ideal S1024x4 .f32) bitsLt_bf16_f32) = padB B := by
  funext i
  unfold padB
  by_cases h : (i 1).val < 4
  · rw [dif_pos h]
    have hi : i = embB (ix2 (i 0) ⟨(i 1).val, h⟩) := by
      funext a
      match a with
      | ⟨0, _⟩ => rfl
      | ⟨1, _⟩ => exact Fin.ext rfl
    conv_lhs => rw [hi]
    rw [LibScatterSet.scatter_set_hit _ _ idx0 _ embB landB embB_inj]
    rfl
  · rw [dif_neg h]
    rw [LibScatterSet.scatter_set_miss _ _ idx0 _ embB landB i (fun j hj => h (by
      have : (j 1).val = (i 1).val := congrArg (fun i : S1024x128.Idx => (i 1).val) hj
      have hj1 : (j 1).val < 4 := (j 1).isLt
      omega))]
    exact ofBits_zero_bf16

end Cert.KernelIdeal.Pads

end
-- ==== Proof.LibSumPad.lean ====
/-
  A finite sum whose terms vanish from position `n` on is the sum of its first `n` terms: over any additive
  commutative monoid, `∑ p : Fin N, F p = ∑ q : Fin n, F q` (with `q` read in `Fin N`) when `F p = 0` for `n ≤ p`.
  This is what zero-padding a contracted axis from `n` to `N` does to a contraction.
-/
import Mathlib.Algebra.BigOperators.Fin

namespace LibSumPad

open scoped BigOperators

theorem sum_eq_sum_castLE {M : Type} [AddCommMonoid M] {n N : Nat} (h : n ≤ N) (F : Fin N → M)
    (hz : ∀ p : Fin N, n ≤ p.val → F p = 0) : ∑ p : Fin N, F p = ∑ q : Fin n, F (Fin.castLE h q) := by
  have e : ∑ q : Fin n, F (Fin.castLE h q) = ∑ p ∈ Finset.univ.map (Fin.castLEEmb h), F p := by
    rw [Finset.sum_map]; rfl
  rw [e]
  symm
  refine Finset.sum_subset (Finset.subset_univ _) fun p _ hp => hz p ?_
  by_contra hlt
  exact hp (Finset.mem_map.mpr ⟨⟨p.val, Nat.lt_of_not_le hlt⟩, Finset.mem_univ _, Fin.ext rfl⟩)

end LibSumPad
-- ==== Proof.LibLayout.lean ====
/-
  Reshapes between a rank-3 array and the rank-2 arrays that merge two of its axes, read at an entry: a reshape keeps the
  row-major position, so merging the first two axes sends `(a, b, c)` to `(a·B + b, c)` and merging the last two sends it to
  `(a, b·C + c)`.  (Stacking the two selectors of a pooling into one matrix, laying the nine filter taps out as one tall
  filter, and flattening a feature array per image are such reshapes.)
-/
import Idealize.ShloMosaic.Lib.ValueIdx
import Idealize.ShloMosaic.Lib.Pipeline.Value

noncomputable section

namespace LibLayout

open Idealize.ShloMosaic Idealize.ShloMosaic.ValueIdx

/-- The first two axes merged: entry `(a·B + b, c)` of the matrix is entry `(a, b, c)` of the array. -/
theorem merge01_apply {α : Type} {A B C N : Nat} (v : (⟨3, ![A, B, C]⟩ : Shape).Idx → α)
    (h : (⟨3, ![A, B, C]⟩ : Shape).ShapeCasts ⟨2, ![N, C]⟩) (a : Fin A) (b : Fin B) (c : Fin C) (r : Fin N)
    (hr : r.val = a.val * B + b.val) :
    shapeCast ⟨2, ![N, C]⟩ v h (ix2 r c) = v (ix3 a b c) := by
  refine shapeCast_apply v h (ix2 r c) (ix3 a b c) ?_
  rw [Shape.rowMajor_val_three, Shape.rowMajor_val_two]
  show (a.val * B + b.val) * C + c.val = r.val * C + c.val
  rw [hr]

/-- The last two axes merged: entry `(a, b·C + c)` of the matrix is entry `(a, b, c)` of the array. -/
theorem merge12_apply {α : Type} {A B C N : Nat} (v : (⟨3, ![A, B, C]⟩ : Shape).Idx → α)
    (h : (⟨3, ![A, B, C]⟩ : Shape).ShapeCasts ⟨2, ![A, N]⟩) (hN : N = B * C) (a : Fin A) (b : Fin B) (c : Fin C) (k : Fin N)
    (hk : k.val = b.val * C + c.val) :
    shapeCast ⟨2, ![A, N]⟩ v h (ix2 a k) = v (ix3 a b c) := by
  refine shapeCast_apply v h (ix2 a k) (ix3 a b c) ?_
  rw [Shape.rowMajor_val_three, Shape.rowMajor_val_two]
  show (a.val * B + b.val) * C + c.val = a.val * N + k.val
  rw [hk, hN, Nat.add_mul, Nat.mul_assoc, Nat.add_assoc]

/-- The other way: a matrix split along its rows into `A` blocks of `B` rows, read at `(a, b, c)`. -/
theorem split0_apply {α : Type} {A B C N : Nat} (v : (⟨2, ![N, C]⟩ : Shape).Idx → α)
    (h : (⟨2, ![N, C]⟩ : Shape).ShapeCasts ⟨3, ![A, B, C]⟩) (a : Fin A) (b : Fin B) (c : Fin C) (r : Fin N)
    (hr : r.val = a.val * B + b.val) :
    shapeCast ⟨3, ![A, B, C]⟩ v h (ix3 a b c) = v (ix2 r c) := by
  refine shapeCast_apply v h (ix3 a b c) (ix2 r c) ?_
  rw [Shape.rowMajor_val_three, Shape.rowMajor_val_two]
  show r.val * C + c.val = (a.val * B + b.val) * C + c.val
  rw [hr]

end LibLayout

end
-- ==== Proof.Law.lean ====
/-
  The two facts that join the kernel's arrangement to the reference's.

  (a) Blocks. Entry `j` of the update computed from a block of rows and the two whole weight arrays is entry `i` of the
      update of the whole matrix, when row `j 0` of the block is row `i 0` of the matrix and column `j 1` is column `i 1`.

  (b) Padding. Padding `A` with zero rows and `B` with zero columns from position 4 to 128 leaves the update unchanged:
      for `p ≥ 4` the term `(∑ k, X (r, k) · 0) · 0` is `0` (on the extended reals `y · 0 = 0` for every `y`, the
      infinities included), so the sum over 128 positions is the sum over the first 4. Together with the reshapes —
      row `b · 8192 + s` of the [32768, 1024] matrix is row `(b, s)` of the [4, 8192, 1024] array — the padded update of
      the merged matrix, split back, is the rank-4 update of the array.
-/
import proofs.«109540_j12884901888328_1_alg».proof.Proof.Spec
import proofs.«109540_j12884901888328_1_alg».proof.Proof.Pads
import proofs.«109540_j12884901888328_1_alg».proof.Proof.LibSumPad
import proofs.«109540_j12884901888328_1_alg».proof.Proof.LibLayout
import Idealize.ShloMosaic.Lib.Pipeline.Value

noncomputable section

namespace Cert.Lora

open Idealize.ShloMosaic Idealize.ShloMosaic.ValueIdx
open Cert.KernelIdeal Cert.KernelIdeal.Gen Cert.KernelIdeal.Pads
open scoped BigOperators

/-- (a) A block of the update is the update's block. -/
theorem lora2_block_eq {R R' P : Nat} (X : (⟨2, ![R, 1024]⟩ : Shape).Idx → EReal) (A : (⟨2, ![P, 1024]⟩ : Shape).Idx → EReal)
    (B : (⟨2, ![1024, P]⟩ : Shape).Idx → EReal) (x0 : (⟨2, ![R', 1024]⟩ : Shape).Idx → EReal)
    (x1 : (⟨2, ![P, 1024]⟩ : Shape).Idx → EReal) (x2 : (⟨2, ![1024, P]⟩ : Shape).Idx → EReal)
    (j : (⟨2, ![R', 1024]⟩ : Shape).Idx) (i : (⟨2, ![R, 1024]⟩ : Shape).Idx)
    (h0 : ∀ k : Fin 1024, x0 (ix2 (j 0) k) = X (ix2 (i 0) k))
    (h1 : ∀ (p : Fin P) (k : Fin 1024), x1 (ix2 p k) = A (ix2 p k))
    (h2 : ∀ p : Fin P, x2 (ix2 (j 1) p) = B (ix2 (i 1) p)) :
    lora2 x0 x1 x2 j = lora2 X A B i := by
  show (∑ p : Fin P, (∑ k : Fin 1024, x0 (ix2 (j 0) k) * x1 (ix2 p k)) * x2 (ix2 (j 1) p)) * quarter
    = (∑ p : Fin P, (∑ k : Fin 1024, X (ix2 (i 0) k) * A (ix2 p k)) * B (ix2 (i 1) p)) * quarter
  refine congrArg (· * quarter) (Finset.sum_congr rfl fun p _ => ?_)
  rw [h2 p]
  refine congrArg (· * B (ix2 (i 1) p)) (Finset.sum_congr rfl fun k _ => ?_)
  rw [h0 k, h1 p k]

/-- The padded `A` at one of its first four rows is `A`. -/
theorem padA_castLE (A : S4x1024.Idx → EReal) (q : Fin 4) (k : Fin 1024) :
    padA A (ix2 (Fin.castLE (by decide : 4 ≤ 128) q) k) = A (ix2 q k) := by
  unfold padA
  rw [dif_pos (show ((ix2 (Fin.castLE (by decide : 4 ≤ 128) q) k : S128x1024.Idx) 0).val < 4 from q.isLt)]
  rfl

/-- The padded `B` at one of its first four columns is `B`. -/
theorem padB_castLE (B : S1024x4.Idx → EReal) (o : Fin 1024) (q : Fin 4) :
    padB B (ix2 o (Fin.castLE (by decide : 4 ≤ 128) q)) = B (ix2 o q) := by
  unfold padB
  rw [dif_pos (show ((ix2 o (Fin.castLE (by decide : 4 ≤ 128) q) : S1024x128.Idx) 1).val < 4 from q.isLt)]
  rfl

/-- The padded `B` beyond column 4 is zero. -/
theorem padB_zero (B : S1024x4.Idx → EReal) (o : Fin 1024) (p : Fin 128) (hp : 4 ≤ p.val) : padB B (ix2 o p) = 0 := by
  unfold padB
  rw [dif_neg (show ¬((ix2 o p : S1024x128.Idx) 1).val < 4 from Nat.not_lt.mpr hp)]

/-- (b) at one row: the rank-128 contraction against the padded weights is the rank-4 contraction. -/
theorem pad_sum (f : Fin 1024 → EReal) (A : S4x1024.Idx → EReal) (B : S1024x4.Idx → EReal) (o : Fin 1024) :
    (∑ p : Fin 128, (∑ k : Fin 1024, f k * padA A (ix2 p k)) * padB B (ix2 o p))
      = ∑ q : Fin 4, (∑ k : Fin 1024, f k * A (ix2 q k)) * B (ix2 o q) := by
  rw [LibSumPad.sum_eq_sum_castLE (by decide : 4 ≤ 128) _ (fun p hp => by rw [padB_zero B o p hp, mul_zero])]
  refine Finset.sum_congr rfl fun q _ => ?_
  rw [padB_castLE]
  refine congrArg (· * B (ix2 o q)) (Finset.sum_congr rfl fun k _ => ?_)
  rw [padA_castLE]

/-- (b) THE LAW: the padded rank-128 update of the merged matrix, split back into [4, 8192, 1024], is the rank-4 update of
    the array. -/
theorem lora_pad (x : S4x8192x1024.Idx → EReal) (A : S4x1024.Idx → EReal) (B : S1024x4.Idx → EReal) :
    shapeCast S4x8192x1024
        (lora2 (R := 32768) (P := 128) (shapeCast S32768x1024 x shapeCasts_S4x8192x1024_S32768x1024) (padA A) (padB B))
        shapeCasts_S32768x1024_S4x8192x1024
      = lora3 (P := 4) x A B := by
  funext i
  obtain ⟨b, s, o, rfl⟩ : ∃ (b : Fin 4) (s : Fin 8192) (o : Fin 1024), i = ix3 b s o := ⟨i 0, i 1, i 2, eq_ix3 i⟩
  have hr : b.val * 8192 + s.val < 32768 := by have := b.isLt; have := s.isLt; omega
  rw [LibLayout.split0_apply _ shapeCasts_S32768x1024_S4x8192x1024 b s o ⟨b.val * 8192 + s.val, hr⟩ rfl,
    lora2_apply, lora3_apply]
  refine congrArg (· * quarter) ?_
  have hx : ∀ k : Fin 1024, shapeCast S32768x1024 x shapeCasts_S4x8192x1024_S32768x1024 (ix2 ⟨b.val * 8192 + s.val, hr⟩ k) = x (ix3 b s k) :=
    fun k => LibLayout.merge01_apply x shapeCasts_S4x8192x1024_S32768x1024 b s k ⟨b.val * 8192 + s.val, hr⟩ rfl
  simp only [hx]
  exact pad_sum (fun k => x (ix3 b s k)) A B o

end Cert.Lora

end
-- ==== Proof.Blocks.lean ====
/-
  From blocks to the array: what the region leaves in its output array.

  The grid has 32 points. At point `t` the body reads rows `1024·t … 1024·t + 1023` of the merged [32768, 1024] matrix and
  the two weight arrays whole, and writes rows `1024·t … 1024·t + 1023` of the output. What it writes is the rank-128
  update of the rows it read, which is those rows of the update of the whole matrix; the 32 row blocks tile the output,
  so after the run the output array is the update of the whole matrix.
-/
import proofs.«109540_j12884901888328_1_alg».proof.Proof.Gen.KernelIdeal.Frame
import proofs.«109540_j12884901888328_1_alg».proof.Proof.Payload
import proofs.«109540_j12884901888328_1_alg».proof.Proof.Law
import Idealize.ShloMosaic.Lib.Pipeline.Value

set_option maxRecDepth 16384

noncomputable section

namespace Cert.KernelIdeal.Blocks

open Idealize.ShloMosaic Idealize.ShloMosaic.TcCoe Idealize.SL.Sem
open Idealize.ShloMosaic.Pipeline (Dat)
open Idealize.ShloMosaic.ValueIdx
open Cert.KernelIdeal Cert.KernelIdeal.Gen Cert.Lora

variable (m : (ℓ : Loc nD τ sig) → Buf (Elt Ideal) ℓ) (ρ : Dev nD → PrngReg)

theorem zero_offsets : (![0, 0] : Fin 2 → Nat) = fun _ => 0 := funext fun a => by fin_cases a <;> rfl

/-- The output array as one function of the three arrays the region reads: the rank-128 update of the merged matrix. -/
abbrev wholeUpdate (c : Dev nD) : S32768x1024.Idx → EReal :=
  lora2 (R := 32768) (P := 128) (V m c main_v0 : S32768x1024.Idx → EReal) (V m c main_v4 : S128x1024.Idx → EReal)
    (V m c main_v8 : S1024x128.Idx → EReal)

/-- The block index maps over the grid: the row windows are at block `t`, the weight windows at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry `y` of the row block at point `t` is entry `(1024·t + y 0, y 1)` of the merged matrix. -/
theorem rows_apply (c : Dev nD) (t : Fin cfg0.N) (y : S1024x1024.Idx) (i : S32768x1024.Idx)
    (h0 : (i 0).val = t.val * 1024 + (y 0).val) (h1 : (i 1).val = (y 1).val) :
    (iblk m c 0 t : S1024x1024.Idx → EReal) y = (V m c main_v0 : S32768x1024.Idx → EReal) i := by
  obtain ⟨e0, e1, -⟩ := idx_facts t
  unfold iblk
  rw [View.read_apply]
  refine congrArg (V m c main_v0 : S32768x1024.Idx → EReal) (funext fun a => Fin.ext ?_)
  match a with
  | ⟨0, _⟩ => show win0_0.index t (0 : Fin 2) * 1024 + 1 * (y 0).val = (i 0).val; rw [e0, h0]; omega
  | ⟨1, _⟩ => show win0_0.index t (1 : Fin 2) * 1024 + 1 * (y 1).val = (i 1).val; rw [e1, h1]; omega

/-- The first weight block at any point is the whole first weight array. -/
theorem wA_apply (c : Dev nD) (t : Fin cfg0.N) (y : S128x1024.Idx) :
    (iblk m c 1 t : S128x1024.Idx → EReal) y = (V m c main_v4 : S128x1024.Idx → EReal) y := by
  obtain ⟨-, -, e0, e1, -⟩ := idx_facts t
  unfold iblk
  rw [View.read_apply]
  refine congrArg (V m c main_v4 : S128x1024.Idx → EReal) (funext fun a => Fin.ext ?_)
  match a with
  | ⟨0, _⟩ => show win0_1.index t (0 : Fin 2) * 128 + 1 * (y 0).val = (y 0).val; rw [e0]; omega
  | ⟨1, _⟩ => show win0_1.index t (1 : Fin 2) * 1024 + 1 * (y 1).val = (y 1).val; rw [e1]; omega

/-- The second weight block at any point is the whole second weight array. -/
theorem wB_apply (c : Dev nD) (t : Fin cfg0.N) (y : S1024x128.Idx) :
    (iblk m c 2 t : S1024x128.Idx → EReal) y = (V m c main_v8 : S1024x128.Idx → EReal) y := by
  obtain ⟨-, -, -, -, e0, e1, -⟩ := idx_facts t
  unfold iblk
  rw [View.read_apply]
  refine congrArg (V m c main_v8 : S1024x128.Idx → EReal) (funext fun a => Fin.ext ?_)
  match a with
  | ⟨0, _⟩ => show win0_2.index t (0 : Fin 2) * 1024 + 1 * (y 0).val = (y 0).val; rw [e0]; omega
  | ⟨1, _⟩ => show win0_2.index t (1 : Fin 2) * 128 + 1 * (y 1).val = (y 1).val; rw [e1]; omega

/-- WHAT POINT `t` WRITES BACK is block `t` of the update of the whole matrix. -/
theorem flushed_eq (c : Dev nD) (t : Fin cfg0.N) :
    (dats m 0 c).flushed 3 t = ((cfg0.win 3).blk t).view.read (Elt Ideal) (wholeUpdate m c) := by
  show (cfg0.win 3).cut (grid0.coords t) ((dats m 0 c).after 3 t) = _
  rw [after0_3]
  unfold out0_3
  rw [View.canon_unit_zero zero_offsets]
  simp only [View.ld_unit_zero (S := S1024x1024) zero_offsets, View.ld_unit_zero (S := S128x1024) zero_offsets,
    View.ld_unit_zero (S := S1024x128) zero_offsets]
  rw [Payload.pay_eq]
  obtain ⟨-, -, -, -, -, -, e0, e1⟩ := idx_facts t
  funext j
  show lora2 (R := 1024) (P := 128) (iblk m c 0 t : S1024x1024.Idx → EReal) (iblk m c 1 t : S128x1024.Idx → EReal)
      (iblk m c 2 t : S1024x128.Idx → EReal) j = wholeUpdate m c (((cfg0.win 3).blk t).view.emb j)
  have hr : ((((cfg0.win 3).blk t).view.emb j : S32768x1024.Idx) 0).val = t.val * 1024 + (j 0).val := by
    show win0_3.index t (0 : Fin 2) * 1024 + 1 * (j 0).val = _; rw [e0]; omega
  have hc : ((((cfg0.win 3).blk t).view.emb j : S32768x1024.Idx) 1).val = (j 1).val := by
    show win0_3.index t (1 : Fin 2) * 1024 + 1 * (j 1).val = _; rw [e1]; omega
  refine lora2_block_eq _ _ _ _ _ _ j _ (fun k => ?_) (fun p k => ?_) (fun p => ?_)
  · exact rows_apply m c t (ix2 (j 0) k) _ hr rfl
  · exact wA_apply m c t (ix2 p k)
  · refine (wB_apply m c t (ix2 (j 1) p)).trans (congrArg (V m c main_v8 : S1024x128.Idx → EReal) (funext fun a => Fin.ext ?_))
    match a with
    | ⟨0, _⟩ => exact hc.symm
    | ⟨1, _⟩ => rfl

/-- An index of the output array is in point `t`'s block iff each coordinate is in the block's range on its axis. -/
theorem mem_blk (t : Fin cfg0.N) (i : S32768x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v9).slice (win0_3.rect t)).set ↔ _
  rw [View.set_slice_whole, Rect.mem_set_unit]
  exact Iff.rfl

/-- Every row block of the output is some point's. -/
theorem idx_onto : ∀ q : Fin 32, ∃ t : Fin cfg0.N, win0_3.index t = ![q.val, 0] :=
  (by decide +kernel : ∀ q : Fin 32, ∃ t : Fin grid0.N, win0_3.index t = ![q.val, 0])

/-- THE COVER: every index of the output array is in the block of the point its row falls in. -/
theorem cover (i : S32768x1024.Idx) :
    ∃ t : Fin cfg0.N, (cfg0.win 3).flush t = true ∧ i ∈ ((cfg0.win 3).blk t).view.set := by
  have hi0 : (i 0).val < 32768 := (i 0).isLt
  have hi1 : (i 1).val < 1024 := (i 1).isLt
  obtain ⟨t, ht⟩ := idx_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

/-- THE OUTPUT ARRAY AFTER THE RUN is the update of the whole matrix. -/
theorem final (c : Dev nD) : (dats m 0 c).arrAt 3 cfg0.N = wholeUpdate m c :=
  (dats m 0 c).arrAt_eq_of_cover 3 (wholeUpdate m c) (fun t _ => flushed_eq m c t) (cover)

end Cert.KernelIdeal.Blocks

end
-- ==== Proof.KernelRun.lean ====
/-
  The kernel's run, read: its result array is the rank-4 update of its argument arrays.

  Before the region the program merges the first two axes of `x` into a [32768, 1024] matrix and pads the two weights
  (the scatters into zero arrays); the region leaves the rank-128 update of that matrix in its output array; after the
  region the program splits the rows back into [4, 8192, 1024]. By the padding law that is the rank-4 update of `x`.
-/
import proofs.«109540_j12884901888328_1_alg».proof.Proof.Gen.KernelIdeal.Frame
import proofs.«109540_j12884901888328_1_alg».proof.Proof.Blocks
import proofs.«109540_j12884901888328_1_alg».proof.Proof.Law
import proofs.«109540_j12884901888328_1_alg».proof.Proof.Pads
import Idealize.ShloMosaic.Lib.StableHlo.Run
import Idealize.ShloMosaic.Lib.Pipeline.Value

noncomputable section

namespace Cert.KernelIdeal.Result

open Idealize.ShloMosaic Idealize.ShloMosaic.TcCoe Idealize.SL.Sem Idealize.ShloMosaic.StableHlo
open Idealize.ShloMosaic.Pipeline (Dat)
open Cert.KernelIdeal Cert.KernelIdeal.Gen Cert.Lora Cert.KernelIdeal.Pads

variable (m : (ℓ : Loc nD τ sig) → Buf (Elt Ideal) ℓ) (ρ : Dev nD → PrngReg)

/-- The matrix the region reads is `x` with its first two axes merged. -/
theorem V_rows (c : Dev nD) : (V m c main_v0 : S32768x1024.Idx → EReal)
    = shapeCast S32768x1024 (m ((c : Thread nD τ).loc main_arg0) : S4x8192x1024.Idx → EReal) shapeCasts_S4x8192x1024_S32768x1024 := by
  show StableHlo.after hostOps0 (fun b => m (c, b)) (Proc.devRef .tc main_v0) = _
  after_results
  rfl

/-- The first weight array the region reads is `A` padded. -/
theorem V_wA (c : Dev nD) : (V m c main_v4 : S128x1024.Idx → EReal)
    = padA (m ((c : Thread nD τ).loc main_arg1) : S4x1024.Idx → EReal) := by
  show StableHlo.after hostOps0 (fun b => m (c, b)) (Proc.devRef .tc main_v4) = _
  after_results
  exact scatterA_eq _

/-- The second weight array the region reads is `B` padded. -/
theorem V_wB (c : Dev nD) : (V m c main_v8 : S1024x128.Idx → EReal)
    = padB (m ((c : Thread nD τ).loc main_arg2) : S1024x4.Idx → EReal) := by
  show StableHlo.after hostOps0 (fun b => m (c, b)) (Proc.devRef .tc main_v8) = _
  after_results
  exact scatterB_eq _

/-- The result array after the lines that follow the region: the region's output split back into [4, 8192, 1024], which
    is the rank-4 update of the argument arrays. -/
theorem result_eq (c : Dev nD) :
    (Pipeline.afterTail₀ cfgs (dats m) 0 (V0 m) [hostOps1] c main_v10 : S4x8192x1024.Idx → EReal)
      = lora3 (P := 4) (m ((c : Thread nD τ).loc main_arg0) : S4x8192x1024.Idx → EReal)
          (m ((c : Thread nD τ).loc main_arg1) : S4x1024.Idx → EReal) (m ((c : Thread nD τ).loc main_arg2) : S1024x4.Idx → EReal) := by
  have e : (Pipeline.withArrays (cfgs 0).spec c (V0 m c) (fun w => (dats m 0 c).arrAt w (cfgs 0).N) (Proc.devRef .tc main_v9)
        : S32768x1024.Idx → EReal)
      = lora2 (R := 32768) (P := 128)
          (shapeCast S32768x1024 (m ((c : Thread nD τ).loc main_arg0) : S4x8192x1024.Idx → EReal) shapeCasts_S4x8192x1024_S32768x1024)
          (padA (m ((c : Thread nD τ).loc main_arg1) : S4x1024.Idx → EReal))
          (padB (m ((c : Thread nD τ).loc main_arg2) : S1024x4.Idx → EReal)) := by
    refine ((Pipeline.withArrays_arr spec0 launch0.win.arr_inj c _ _ 3).trans (Blocks.final m c)).trans ?_
    show lora2 (R := 32768) (P := 128) (V m c main_v0 : S32768x1024.Idx → EReal) (V m c main_v4 : S128x1024.Idx → EReal)
      (V m c main_v8 : S1024x128.Idx → EReal) = _
    rw [V_rows, V_wA, V_wB]
  unfold Pipeline.afterTail₀
  show StableHlo.after hostOps1 _ (Proc.devRef .tc main_v10) = _
  after_results
  refine Eq.trans ?_ (lora_pad _ _ _)
  funext i
  show shapeCast S4x8192x1024 (Pipeline.withArrays (cfgs 0).spec c (V0 m c) (fun w => (dats m 0 c).arrAt w (cfgs 0).N) (Proc.devRef .tc main_v9)
        : S32768x1024.Idx → EReal) shapeCasts_S32768x1024_S4x8192x1024 i = _
  rw [e]

/-- THE KERNEL'S RUN: every weakly fair execution terminates with the result array at the rank-4 update of the argument
    arrays and the argument arrays unchanged. -/
theorem run : θ_run defs (onTc (τ := τ) (main (F := Ideal))) ⟨m, fun _ => 0, ρ⟩ (fun r => ∀ c : Dev nD,
      r.2.mem ((c.tc : Thread nD τ).loc main_v10)
        = lora3 (P := 4) (m ((c : Thread nD τ).loc main_arg0) : S4x8192x1024.Idx → EReal)
            (m ((c : Thread nD τ).loc main_arg1) : S4x1024.Idx → EReal) (m ((c : Thread nD τ).loc main_arg2) : S1024x4.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h c).2 main_v10 (Pipeline.mem_restRefs_of main_v10 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.Result

end
-- ==== Proof.RefValue.lean ====
/-
  The reference, entry by entry: its two contractions and its scale are the rank-4 update of the [4, 8192, 1024] array.

  Entry `(b, s, o)` of the reference's result is `(∑ r < 4, (∑ k < 1024, x (b, s, k) · A (r, k)) · B (o, r)) · ¼`: the first
  contraction pairs the array's last axis with `A`'s second, the second pairs the intermediate's last axis with `B`'s
  second, and the product with the broadcast scale multiplies by the same word the kernel uses.
-/
import proofs.«109540_j12884901888328_1_alg».proof.Proof.Gen.ReferenceIdeal.Read
import proofs.«109540_j12884901888328_1_alg».proof.Proof.Spec

noncomputable section

namespace Cert.ReferenceIdeal.RefValue

open Idealize.ShloMosaic Idealize.ShloMosaic.ValueIdx
open Cert.ReferenceIdeal Cert.ReferenceIdeal.Gen Cert.ReferenceIdeal.Read Cert.Lora
open scoped BigOperators

/-- THE REFERENCE'S RESULT is the rank-4 update. -/
theorem ref_eq (x : S4x8192x1024.Idx → EReal) (A : S4x1024.Idx → EReal) (B : S1024x4.Idx → EReal) :
    val_main_v3 (F := Ideal) x A B = lora3 (P := 4) x A B := by
  funext i
  obtain ⟨b, s, o, rfl⟩ : ∃ (b : Fin 4) (s : Fin 8192) (o : Fin 1024), i = ix3 b s o := ⟨i 0, i 1, i 2, eq_ix3 i⟩
  rw [val_main_v3_apply, val_main_v1_apply, val_main_v2_apply, val_main_cst_apply, lora3_apply]
  show (∑ q : Fin 4, val_main_v0 (F := Ideal) x A (lidx_main_v1 (ix3 b s o) q) * B (ridx_main_v1 (ix3 b s o) q)) * quarter = _
  refine congrArg (· * quarter) (Finset.sum_congr rfl fun q _ => ?_)
  have eB : ridx_main_v1 (ix3 b s o) q = ix2 o q := funext fun a => Fin.ext (by
    match a with
    | ⟨0, _⟩ => rfl
    | ⟨1, _⟩ => rfl)
  rw [val_main_v0_apply, eB]
  refine congrArg (· * B (ix2 o q)) (Finset.sum_congr rfl fun k _ => ?_)
  have eL : lidx_main_v0 (lidx_main_v1 (ix3 b s o) q) k = ix3 b s k := funext fun a => Fin.ext (by
    match a with
    | ⟨0, _⟩ => rfl
    | ⟨1, _⟩ => rfl
    | ⟨2, _⟩ => rfl)
  have eR : ridx_main_v0 (lidx_main_v1 (ix3 b s o) q) k = ix2 q k := funext fun a => Fin.ext (by
    match a with
    | ⟨0, _⟩ => rfl
    | ⟨1, _⟩ => rfl)
  rw [eL, eR]

end Cert.ReferenceIdeal.RefValue

end
-- ==== Proof.lean ====
/-
  A low-rank update `x ↦ ¼ · (x · Aᵀ) · Bᵀ` of a [4, 8192, 1024] array by a [4, 1024] matrix `A` and a [1024, 4] matrix
  `B`: a tiled kernel against the two contractions of the reference, equal over the extended reals.

  The kernel merges the first two axes of `x` into a [32768, 1024] matrix, pads the rank from 4 to 128 with zero rows of
  `A` and zero columns of `B`, and in each of 32 grid points computes, for 1024 rows, the product with the padded `Aᵀ`,
  the product of that with the padded `Bᵀ`, and the scale by one quarter; then it splits the rows back. The reference
  contracts `x` with `A` over the last axis, the result with `B` over the rank axis, and scales by the same quarter.

  Entry by entry both are `(∑ r < 4, (∑ k < 1024, x (b, s, k) · A (r, k)) · B (o, r)) · ¼`. The only law between the two
  arrangements is that the padded positions contribute nothing: for `p ≥ 4` the term is `(∑ k, x · 0) · 0 = 0`, which on
  the extended reals holds for every value of the first factor, so finiteness of the inputs is never used. Changes of
  float format are the identity here, a matrix product into a zero accumulator is the plain sum of products, and the
  scale is the same binary word on both sides and is never evaluated. The idealization rewrote nothing, so the fourth
  conjunct is trivial; the three frame conjuncts are the generated frames and the reference's generated run.
-/
import proofs.«109540_j12884901888328_1_alg».proof.Defs
import proofs.«109540_j12884901888328_1_alg».proof.Proof.Gen.Kernel
import proofs.«109540_j12884901888328_1_alg».proof.Proof.Gen.Kernel.Skeleton
import proofs.«109540_j12884901888328_1_alg».proof.Proof.Gen.Kernel.Launch
import proofs.«109540_j12884901888328_1_alg».proof.Proof.Gen.Kernel.Points
import proofs.«109540_j12884901888328_1_alg».proof.Proof.Gen.Kernel.Frame
import proofs.«109540_j12884901888328_1_alg».proof.Proof.Gen.KernelIdeal
import proofs.«109540_j12884901888328_1_alg».proof.Proof.Gen.KernelIdeal.Skeleton
import proofs.«109540_j12884901888328_1_alg».proof.Proof.Gen.KernelIdeal.Launch
import proofs.«109540_j12884901888328_1_alg».proof.Proof.Gen.KernelIdeal.Points
import proofs.«109540_j12884901888328_1_alg».proof.Proof.Gen.KernelIdeal.Frame
import proofs.«109540_j12884901888328_1_alg».proof.Proof.Gen.ReferenceIdeal
import proofs.«109540_j12884901888328_1_alg».proof.Proof.Gen.ReferenceIdeal.Run
import proofs.«109540_j12884901888328_1_alg».proof.Proof.Gen.ReferenceIdeal.Read
import proofs.«109540_j12884901888328_1_alg».proof.Proof.Gen.Pre_finite_inputs
import proofs.«109540_j12884901888328_1_alg».proof.Proof.KernelRun
import proofs.«109540_j12884901888328_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the rank-4 update of the arguments: the kernel by
    its blocks, the padding law and the reshapes; the reference by its two contractions read entry by entry. -/
theorem algebraic : Cert.algebraic_KernelIdeal_ReferenceIdeal := by
  intro m ρ m' ρ' _ hagree
  refine ⟨fun c => Cert.Lora.lora3 (P := 4)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
